-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel program's run with its result NAMED.  @main is nine segments: three stretches of host
  operations, the first matrix product's region, a stretch, the bias-and-rectifier region, the second matrix product's
  region, a stretch, the last bias region.  Every weakly fair execution ends; at the end every unscoped buffer of a core
  holds what the fold of the segments over the launch memory gives it (`Gen.W9`).  Read at the result buffer this names the
  result; read at an argument's buffer it is the launch contents.
-/
import proofs.«143281_j47304769798459_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold's value there and
    the six argument arrays end as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.Spec.lean ====
/-
  The four kernel regions as whole-array functions on the extended reals.  A two-layer graph convolution: each layer is a
  matrix product with the layer's weights, a gather-scale-scatter aggregation over the edges (host operations), and a bias
  (the first layer followed by the rectifier).  The kernel computes each matrix product and each bias step block by block
  over ten blocks of 5000 rows; read over the whole arrays they are the functions below, written with the host operations
  of the same name so that the two programs' results can be compared term by term.
-/
import proofs.«143281_j47304769798459_1_alg».proof.KernelIdeal
import proofs.«143281_j47304769798459_1_alg».proof.ReferenceIdeal
import Idealize.ShloMosaic.PureOps.Ideal

noncomputable section

namespace Cert.Spec

open Idealize.ShloMosaic
open Cert.ReferenceIdeal (S50000x64 S64x128 S50000x128 S1x128 S128x64 S1x64 S_ S128 S64)
open Cert.ReferenceIdeal.Facts₀

variable [Cert.ReferenceIdeal.Facts]

/-- The first layer's linear map: row `r`, column `c` of `x · w` is the sum over `k` of `x r k * w k c`. -/
def mm1 (x : FVec Ideal S50000x64 .f32) (w : FVec Ideal S64x128 .f32) :
    FVec Ideal S50000x128 .f32 :=
  Host.dotGeneral (F := Ideal) Cert.ReferenceIdeal.dot_S50000x64_S64x128_S50000x128_1_0_0_1_n_n none x w

/-- The first layer's epilogue: the bias row added to every row, then the maximum with zero. -/
def biasRelu (a : FVec Ideal S50000x128 .f32) (b : FVec Ideal S1x128 .f32) :
    FVec Ideal S50000x128 .f32 :=
  maximumf (F := Ideal) (addf a (broadcastInDim S50000x128 ![0, 1] bcast_S1x128_S50000x128_0_1 b))
    (broadcastInDim S50000x128 ![] bcast_S_S50000x128 (constant (F := Ideal) S_ .f32 0x00000000#32))

/-- The second layer's linear map. -/
def mm2 (x : FVec Ideal S50000x128 .f32) (w : FVec Ideal S128x64 .f32) :
    FVec Ideal S50000x64 .f32 :=
  Host.dotGeneral (F := Ideal) Cert.ReferenceIdeal.dot_S50000x128_S128x64_S50000x64_1_0_0_1_n_n none x w

/-- The second layer's epilogue: the bias row added to every row. -/
def bias (a : FVec Ideal S50000x64 .f32) (b : FVec Ideal S1x64 .f32) :
    FVec Ideal S50000x64 .f32 :=
  addf (F := Ideal) a (broadcastInDim S50000x64 ![0, 1] bcast_S1x64_S50000x64_0_1 b)

end Cert.Spec

end
-- ==== Proof.Stages.lean ====
/-
  The host side of the two-layer graph convolution as pure functions of the argument arrays, on the extended reals.
  From the edge list `e` ([2, 800000] integers) the source and destination columns are its two rows, each followed by the
  self loops 0 … 49999.  The degree of a node is the number of edges that end in it; the normalisation of an edge is the product
  of the inverse square roots of its two ends' degrees (zero where a degree is not positive).  A layer's aggregation gathers the
  transformed rows at the edges' sources (a negative index wraps once around), scales each by its edge's normalisation, and sums
  them into the rows of the edges' destinations.  The whole program is: aggregate `x · W₁`, add `b₁` and rectify, aggregate the
  result times `W₂`, add `b₂`.
-/
import proofs.«143281_j47304769798459_1_alg».proof.Proof.Spec

noncomputable section

namespace Cert.Stages

open Idealize.ShloMosaic
open Cert.ReferenceIdeal (S50000x64 S2x800000 S64x128 S128 S128x64 S64 S50000 S1x800000 S800000 S850000 S_ S850000x1 S50000x128
  S850000x128 S1x128 S850000x64 S1x64
  scatter_S50000_S850000x1_S850000_n_0_0_1 gather_S50000_S850000x1_S850000_n_0_n_n_0_1_1
  gather_S50000x128_S850000x1_S850000x128_1_0_n_n_0_1_1128 scatter_S50000x128_S850000x1_S850000x128_1_0_0_1
  gather_S50000x64_S850000x1_S850000x64_1_0_n_n_0_1_164 scatter_S50000x64_S850000x1_S850000x64_1_0_0_1)
open Cert.ReferenceIdeal.Facts₀

variable [Cert.ReferenceIdeal.Facts]

/-- The edges' sources: row 0 of the edge list, then the self loops. -/
def src (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations: row 1 of the edge list, then the self loops. -/
def dst (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node's degree: one summed into it per edge that ends there. -/
def deg (d : IVec S850000 32) : FVec Ideal S50000 .f32 :=
  Host.scatterAdd (F := Ideal) scatter_S50000_S850000x1_S850000_n_0_0_1 (broadcastInDim S50000 ![] bcast_S_S50000 (constant (F := Ideal) S_ .f32 0x00000000#32))
    (broadcastInDim S850000x1 ![0] bcast_S850000_S850000x1_0 d) (broadcastInDim S850000 ![] bcast_S_S850000 (constant (F := Ideal) S_ .f32 0x3F800000#32))

/-- The inverse square root of a positive degree, zero otherwise. -/
def dinv (g : FVec Ideal S50000 .f32) : FVec Ideal S50000 .f32 :=
  select (cmpf (F := Ideal) .ogt g (broadcastInDim S50000 ![] bcast_S_S50000 (constant (F := Ideal) S_ .f32 0x00000000#32))) (Host.rsqrt (F := Ideal) g)
    (broadcastInDim S50000 ![] bcast_S_S50000 (id (constant (F := Ideal) S_ .f32 0x00000000#32)))

/-- A column of row indices, a negative one wrapped once around the 50000 rows. -/
def wrap (s : IVec S850000 32) : IVec S850000x1 32 :=
  broadcastInDim S850000x1 ![0] bcast_S850000_S850000x1_0
    (select (cmpi .slt s (broadcastInDim S850000 ![] bcast_S_S850000 (constantI S_ 32 0#32))) (addi s (broadcastInDim S850000 ![] bcast_S_S850000 (constantI S_ 32 50000#32))) s)

/-- An edge's normalisation: the product of its two ends' inverse square-root degrees. -/
def norm (s d : IVec S850000 32) (di : FVec Ideal S50000 .f32) : FVec Ideal S850000 .f32 :=
  mulf (F := Ideal) (Host.gather gather_S50000_S850000x1_S850000_n_0_n_n_0_1_1 di (wrap s)) (Host.gather gather_S50000_S850000x1_S850000_n_0_n_n_0_1_1 di (wrap d))

/-- The normalisation of every edge, from the edge list alone. -/
def edgeNorm (e : IVec S2x800000 32) : FVec Ideal S850000 .f32 := norm (src e) (dst e) (dinv (deg (dst e)))

/-- The first layer's aggregation: the rows of `h` at the edges' sources, each scaled by its edge's normalisation, summed into
    the edges' destinations. -/
def agg128 (h : FVec Ideal S50000x128 .f32) (s d : IVec S850000 32) (n : FVec Ideal S850000 .f32) : FVec Ideal S50000x128 .f32 :=
  Host.scatterAdd (F := Ideal) scatter_S50000x128_S850000x1_S850000x128_1_0_0_1 (broadcastInDim S50000x128 ![] bcast_S_S50000x128 (constant (F := Ideal) S_ .f32 0x00000000#32))
    (broadcastInDim S850000x1 ![0] bcast_S850000_S850000x1_0 d)
    (mulf (F := Ideal) (Host.gather gather_S50000x128_S850000x1_S850000x128_1_0_n_n_0_1_1128 h (wrap s))
      (broadcastInDim S850000x128 ![0, 1] bcast_S850000x1_S850000x128_0_1 (broadcastInDim S850000x1 ![0] bcast_S850000_S850000x1_0 n)))

/-- The second layer's aggregation, on 64 columns. -/
def agg64 (h : FVec Ideal S50000x64 .f32) (s d : IVec S850000 32) (n : FVec Ideal S850000 .f32) : FVec Ideal S50000x64 .f32 :=
  Host.scatterAdd (F := Ideal) scatter_S50000x64_S850000x1_S850000x64_1_0_0_1 (broadcastInDim S50000x64 ![] bcast_S_S50000x64 (constant (F := Ideal) S_ .f32 0x00000000#32))
    (broadcastInDim S850000x1 ![0] bcast_S850000_S850000x1_0 d)
    (mulf (F := Ideal) (Host.gather gather_S50000x64_S850000x1_S850000x64_1_0_n_n_0_1_164 h (wrap s))
      (broadcastInDim S850000x64 ![0, 1] bcast_S850000x1_S850000x64_0_1 (broadcastInDim S850000x1 ![0] bcast_S850000_S850000x1_0 n)))

/-- A bias vector as a one-row matrix. -/
def row128 (b : FVec Ideal S128 .f32) : FVec Ideal S1x128 .f32 := broadcastInDim S1x128 ![1] bcast_S128_S1x128_1 b
def row64 (b : FVec Ideal S64 .f32) : FVec Ideal S1x64 .f32 := broadcastInDim S1x64 ![1] bcast_S64_S1x64_1 b

/-- The whole two-layer network as one function of the six argument arrays. -/
def net (x : FVec Ideal S50000x64 .f32) (e : IVec S2x800000 32) (w1 : FVec Ideal S64x128 .f32) (b1 : FVec Ideal S128 .f32)
    (w2 : FVec Ideal S128x64 .f32) (b2 : FVec Ideal S64 .f32) : FVec Ideal S50000x64 .f32 :=
  Cert.Spec.bias
    (agg64 (Cert.Spec.mm2 (Cert.Spec.biasRelu (agg128 (Cert.Spec.mm1 x w1) (src e) (dst e) (edgeNorm e)) (row128 b1)) w2)
      (src e) (dst e) (edgeNorm e))
    (row64 b2)

end Cert.Stages

end
-- ==== Proof.RefBridge.lean ====
/-
  The reference program's result is the two-layer network of the argument arrays: the composed term of its 116 host
  operations, read from the inside out, is the aggregation of `x · W₁`, plus `b₁`, rectified, times `W₂`, aggregated again,
  plus `b₂` — with the edges' normalisation computed twice from the same edge list.
-/
import proofs.«143281_j47304769798459_1_alg».proof.Proof.RefRun
import proofs.«143281_j47304769798459_1_alg».proof.Proof.Stages

noncomputable section

namespace Cert.RefBridge

open Cert.ReferenceIdeal Idealize.ShloMosaic Idealize.ShloMosaic.TcCoe Idealize.SL.Sem

/-- The reference's composed result term is `Stages.net` of the launch contents of its six arguments. -/
theorem res_eq_net (m : (ℓ : Loc nD τ sig) → Buf (Elt Ideal) ℓ) (c : Dev nD) :
    Cert.ReferenceIdeal.ValueP.res_main_v87 (F := Ideal) m c
      = Cert.Stages.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v87
  rfl

end Cert.RefBridge

end
-- ==== Proof.Region0.lean ====
/-
  The first matrix product, block by block.  The region runs ten grid points; point t multiplies rows
  5000 t … 5000 t + 4999 of the input by the whole 64 × 128 weight matrix and writes the result to the same rows of the
  output.  On the extended reals the roundings to bf16 are the identity and the accumulator starts at zero, so the
  element (p, q) a point writes is the sum over k < 64 of x(p, k) · w(k, q); the whole-array product at (r, q) is the same
  sum with the array's row r.  Since row r lies in exactly the block r / 5000, the ten blocks together are the whole
  product.
-/
import proofs.«143281_j47304769798459_1_alg».proof.Proof.Gen.KernelIdeal.Frame
import proofs.«143281_j47304769798459_1_alg».proof.Proof.Gen.ReferenceIdeal
import proofs.«143281_j47304769798459_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen
open Idealize.ShloMosaic Idealize.ShloMosaic.TcCoe Idealize.SL.Sem
open Idealize.ShloMosaic.ValueIdx

/-! ## The two matrix products read at an index

The kernel multiplies one block of 5000 rows by the whole weight matrix; the reference multiplies all 50000 rows at
once. Each is a sum over the one contracted axis; both sums are re-indexed to `Fin 64`. -/

/-- The block product's dimension numbers: rows of the left factor against columns of the right. -/
abbrev dotBlk : DotDims S5000x64 S64x128 S5000x128 := dot_S5000x64_S64x128_S5000x128_1_0_0_1_n_n

/-- The whole product's dimension numbers. -/
abbrev dotAll : DotDims S50000x64 S64x128 S50000x128 :=
  Cert.ReferenceIdeal.dot_S50000x64_S64x128_S50000x128_1_0_0_1_n_n

/-- The left factor's row coordinate is the output's row. -/
theorem dotBlk_lhs_row (i : S5000x128.Idx) (s : dotBlk.contr.Idx) : (dotBlk.lhsIdx i s 0).val = (i 0).val := by
  unfold DotDims.lhsIdx
  rw [dif_neg (show ¬(0 : Fin S5000x64.rank) ∈ dotBlk.lhsBatch by decide),
    dif_pos (show (0 : Fin S5000x64.rank) ∈ dotBlk.lhsNonContracting by decide)]
  rfl

/-- The left factor's column coordinate is the contraction position. -/
theorem dotBlk_lhs_col (i : S5000x128.Idx) (s : dotBlk.contr.Idx) :
    (dotBlk.lhsIdx i s 1).val = (s ⟨0, by decide⟩).val :=
  dotBlk.lhsIdx_val_of_single rfl i s

/-- The right factor's row coordinate is the contraction position. -/
theorem dotBlk_rhs_row (i : S5000x128.Idx) (s : dotBlk.contr.Idx) :
    (dotBlk.rhsIdx i s 0).val = (s ⟨0, by decide⟩).val :=
  dotBlk.rhsIdx_val_of_single rfl i s

/-- The right factor's column coordinate is the output's column. -/
theorem dotBlk_rhs_col (i : S5000x128.Idx) (s : dotBlk.contr.Idx) : (dotBlk.rhsIdx i s 1).val = (i 1).val := by
  unfold DotDims.rhsIdx
  rw [dif_neg (show ¬(1 : Fin S64x128.rank) ∈ dotBlk.rhsBatch by decide),
    dif_pos (show (1 : Fin S64x128.rank) ∈ dotBlk.rhsNonContracting by decide)]
  rfl

/-- The left factor's index at output position (p, q) and contraction position k is (p, k). -/
theorem dotBlk_lhs (p : Fin 5000) (q : Fin 128) (k : Fin 64) :
    dotBlk.lhsIdx (ix2 p q) ((contrEquiv1 dotBlk 64 rfl rfl).symm k) = ix2 p k := by
  have hk := contrEquiv1_symm_val dotBlk 64 rfl rfl k
  funext a; apply Fin.ext
  match a with
  | ⟨0, _⟩ => exact dotBlk_lhs_row _ _
  | ⟨1, _⟩ => exact (dotBlk_lhs_col _ _).trans hk

/-- The right factor's index at output position (p, q) and contraction position k is (k, q). -/
theorem dotBlk_rhs (p : Fin 5000) (q : Fin 128) (k : Fin 64) :
    dotBlk.rhsIdx (ix2 p q) ((contrEquiv1 dotBlk 64 rfl rfl).symm k) = ix2 k q := by
  have hk := contrEquiv1_symm_val dotBlk 64 rfl rfl k
  funext a; apply Fin.ext
  match a with
  | ⟨0, _⟩ => exact (dotBlk_rhs_row _ _).trans hk
  | ⟨1, _⟩ => exact dotBlk_rhs_col _ _

/-- The left factor's row coordinate is the output's row. -/
theorem dotAll_lhs_row (i : S50000x128.Idx) (s : dotAll.contr.Idx) : (dotAll.lhsIdx i s 0).val = (i 0).val := by
  unfold DotDims.lhsIdx
  rw [dif_neg (show ¬(0 : Fin S50000x64.rank) ∈ dotAll.lhsBatch by decide),
    dif_pos (show (0 : Fin S50000x64.rank) ∈ dotAll.lhsNonContracting by decide)]
  rfl

/-- The left factor's column coordinate is the contraction position. -/
theorem dotAll_lhs_col (i : S50000x128.Idx) (s : dotAll.contr.Idx) :
    (dotAll.lhsIdx i s 1).val = (s ⟨0, by decide⟩).val :=
  dotAll.lhsIdx_val_of_single rfl i s

/-- The right factor's row coordinate is the contraction position. -/
theorem dotAll_rhs_row (i : S50000x128.Idx) (s : dotAll.contr.Idx) :
    (dotAll.rhsIdx i s 0).val = (s ⟨0, by decide⟩).val :=
  dotAll.rhsIdx_val_of_single rfl i s

/-- The right factor's column coordinate is the output's column. -/
theorem dotAll_rhs_col (i : S50000x128.Idx) (s : dotAll.contr.Idx) : (dotAll.rhsIdx i s 1).val = (i 1).val := by
  unfold DotDims.rhsIdx
  rw [dif_neg (show ¬(1 : Fin S64x128.rank) ∈ dotAll.rhsBatch by decide),
    dif_pos (show (1 : Fin S64x128.rank) ∈ dotAll.rhsNonContracting by decide)]
  rfl

/-- The left factor's index at output position (p, q) and contraction position k is (p, k). -/
theorem dotAll_lhs (p : Fin 50000) (q : Fin 128) (k : Fin 64) :
    dotAll.lhsIdx (ix2 p q) ((contrEquiv1 dotAll 64 rfl rfl).symm k) = ix2 p k := by
  have hk := contrEquiv1_symm_val dotAll 64 rfl rfl k
  funext a; apply Fin.ext
  match a with
  | ⟨0, _⟩ => exact dotAll_lhs_row _ _
  | ⟨1, _⟩ => exact (dotAll_lhs_col _ _).trans hk

/-- The right factor's index at output position (p, q) and contraction position k is (k, q). -/
theorem dotAll_rhs (p : Fin 50000) (q : Fin 128) (k : Fin 64) :
    dotAll.rhsIdx (ix2 p q) ((contrEquiv1 dotAll 64 rfl rfl).symm k) = ix2 k q := by
  have hk := contrEquiv1_symm_val dotAll 64 rfl rfl k
  funext a; apply Fin.ext
  match a with
  | ⟨0, _⟩ => exact (dotAll_rhs_row _ _).trans hk
  | ⟨1, _⟩ => exact dotAll_rhs_col _ _

/-- The block product at (p, q): the bf16 roundings are the identity on the extended reals and the accumulator is
    zero, so it is the sum over k of x(p, k) · w(k, q). -/
theorem pay_apply (x : Vec Ideal S5000x64 .f32) (w : Vec Ideal S64x128 .f32) (p : Fin 5000) (q : Fin 128) :
    k0_pay1 (F := Ideal) x w (ix2 p q) = ∑ k : Fin 64, x (ix2 p k) * w (ix2 k q) := by
  unfold k0_pay1
  refine (Ideal.matmul_constant_zero_apply dotBlk none _ _ (ix2 p q)).trans ?_
  rw [← Equiv.sum_comp (contrEquiv1 dotBlk 64 rfl rfl).symm]
  refine Finset.sum_congr rfl fun k _ => ?_
  rw [dotBlk_lhs, dotBlk_rhs]
  rfl

/-- The whole product at (r, q): the sum over k of X(r, k) · W(k, q). -/
theorem mm1_apply (X : Vec Ideal S50000x64 .f32) (W : Vec Ideal S64x128 .f32) (r : Fin 50000) (q : Fin 128) :
    Cert.Spec.mm1 X W (ix2 r q) = ∑ k : Fin 64, X (ix2 r k) * W (ix2 k q) := by
  unfold Cert.Spec.mm1
  simp only [Host.dotGeneral]
  rw [Ideal.dotGeneral_apply, ← Equiv.sum_comp (contrEquiv1 dotAll 64 rfl rfl).symm]
  refine Finset.sum_congr rfl fun k _ => ?_
  rw [dotAll_lhs, dotAll_rhs]

/-- One element: when the block's row p is the array's row r and the block's weights are the array's, the block
    product at (p, q) is the whole product at (r, q). -/
theorem block_point (X : Vec Ideal S50000x64 .f32) (W : Vec Ideal S64x128 .f32)
    (x : Vec Ideal S5000x64 .f32) (w : Vec Ideal S64x128 .f32) (p : Fin 5000) (q : Fin 128) (r : Fin 50000)
    (hx : ∀ k : Fin 64, x (ix2 p k) = X (ix2 r k)) (hw : ∀ k : Fin 64, w (ix2 k q) = W (ix2 k q)) :
    k0_pay1 (F := Ideal) x w (ix2 p q) = Cert.Spec.mm1 X W (ix2 r q) := by
  rw [pay_apply, mm1_apply]
  exact Finset.sum_congr rfl fun k _ => by rw [hx k, hw k]

variable (V : (c : Dev nD) → (b : Ref sig .tc) → Buf (Elt Ideal) ((c : Thread nD τ).loc b)) (c : Dev nD)

/-! ## From blocks to the array

Grid point t holds block `t` of the rows: window 0 and the output window move together down the rows, window 1 is the
whole weight matrix at every point. -/

theorem hz : (![0, 0] : Fin 2 → Nat) = fun _ => 0 := funext fun a => by fin_cases a <;> rfl

/-- The index maps, decided once over the ten grid points: the input rows' block index is the output's, every
    other block index is 0, and the output's row-block index is at most 9. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some grid point's. -/
theorem idx_onto : ∀ b : Fin 10, ∃ t : Fin cfg0.N, win0_2.index t = ![b.val, 0] :=
  (by decide +kernel : ∀ b : Fin 10, ∃ t : Fin grid0.N, win0_2.index t = ![b.val, 0])

/-- Window 0's block at point t, element (p, k), is the input array's element (r, k) for the row r the block's
    offset puts p at. -/
theorem rows_block (t : Fin cfg0.N) (p : Fin 5000) (k : Fin 64) (r : Fin 50000)
    (hr : r.val = win0_0.index t (0 : Fin 2) * 5000 + p.val) (h1 : win0_0.index t (1 : Fin 2) = 0) :
    iblk0 (F := Ideal) V c 0 t (ix2 p k) = V c main_arg0 (ix2 r k) := by
  unfold iblk0
  rw [View.read_apply]
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Window 1's block at any point is the whole weight matrix. -/
theorem weights_block (t : Fin cfg0.N) (k : Fin 64) (q : Fin 128)
    (h0 : win0_1.index t (0 : Fin 2) = 0) (h1 : win0_1.index t (1 : Fin 2) = 0) :
    iblk0 (F := Ideal) V c 1 t (ix2 k q) = V c main_arg2 (ix2 k q) := by
  unfold iblk0
  rw [View.read_apply]
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 64 + 1 * k.val = k.val; omega
  | ⟨1, _⟩ => show win0_1.index t (1 : Fin 2) * 128 + 1 * q.val = q.val; omega

/-- What point t writes back is block t of the whole product. -/
theorem flushed_eq (t : Fin cfg0.N) :
    (dat0 (F := Ideal) V c).flushed 2 t
      = ((cfg0.win 2).blk t).view.read (Elt Ideal) (Cert.Spec.mm1 (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have hp : p.val < 5000 := p.isLt
  -- the array index the output block puts (p, q) at: row 5000·(block index) + p, column q
  have hi : ((cfg0.win 2).blk t).view.emb (ix2 p q)
      = ix2 (⟨win0_2.index t (0 : Fin 2) * 5000 + p.val, by omega⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (F := Ideal) (iblk0 V c 0 t) (iblk0 V c 1 t) (ix2 p q)
    = Cert.Spec.mm1 (V c main_arg0) (V c main_arg2) (((cfg0.win 2).blk t).view.emb (ix2 p q))
  rw [hi]
  exact block_point _ _ _ _ p q _
    (fun k => rows_block V c t p k _ (by show win0_2.index t (0 : Fin 2) * 5000 + p.val = _; omega) e1)
    (fun k => weights_block V c t k q e2 e3)

/-- An array index is in point t's block iff each coordinate is in the block's range on its axis. -/
theorem mem_blk (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- Every array index is in some point's block: row r is in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The region's output array after its ten points is the whole product of the arrays it was entered with. -/
theorem final : (dat0 (F := Ideal) V c).arrAt 2 cfg0.N = Cert.Spec.mm1 (V c main_arg0) (V c main_arg2) :=
  (dat0 V c).arrAt_eq_of_cover 2 (Cert.Spec.mm1 (V c main_arg0) (V c main_arg2))
    (fun t _ => flushed_eq V c t) cover

end Cert.KernelIdeal.Region0

end
-- ==== Proof.Region1.lean ====
/-
  The first layer's epilogue (bias, then the rectifier), block by block, is the whole-array epilogue.

  The region runs over ten grid points.  Point `t` reads rows `5000 t … 5000 t + 4999` of the [50000, 128] input array and
  the whole [1, 128] bias row, and writes the same rows of the output array.  The element it writes at row `y`, column `q`
  of its block is the maximum of (the input block's element there plus the bias row's element of column `q`) and the value
  of the zero word; read at the element's place `(5000 t + y, q)` of the arrays this is the whole-array function "add the
  bias row to every row, then take the maximum with zero" at that place: there too the zero is the value of the same word,
  broadcast.  Every row `r` of the output lies in the block of the one point with block index `r / 5000`, so after the ten
  points the output array is that function of the input array and the bias row.  No arithmetic law is used and the zero
  word is never evaluated: both sides are the same expression of the same elements, index by index.
-/
import proofs.«143281_j47304769798459_1_alg».proof.Proof.Gen.KernelIdeal.Frame
import proofs.«143281_j47304769798459_1_alg».proof.Proof.Gen.ReferenceIdeal
import proofs.«143281_j47304769798459_1_alg».proof.Proof.Spec
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-buffer access, as the constant function. -/
theorem hz : (![0, 0] : Fin 2 → Nat) = fun _ => 0 := funext fun a => by fin_cases a <;> rfl

/-- The body's arithmetic at one element of the block: the block's element plus the bias row's element of the same column,
    then the maximum with the zero word's value. -/
theorem pay_apply (x0 : Vec Ideal S5000x128 .f32) (x1 : Vec Ideal S1x128 .f32) (p : Fin 5000) (q : Fin 128) :
    k1_pay1 x0 x1 (ix2 p q)
      = max (x0 (ix2 p q) + x1 (ix2 (0 : Fin 1) q)) (Ideal.ofBits .f32 0x00000000#32) := by
  unfold k1_pay1
  rw [shapeCast_self, shapeCast_self, maximumf_apply, addf_apply, broadcast_apply]
  refine congrArg (fun z => max (x0 (ix2 p q) + z) _) ?_
  refine broadcastTo_apply x1 _ (ix2 p q) (ix2 (0 : Fin 1) q) fun a => ?_
  match a with
  | ⟨0, _⟩ => rfl
  | ⟨1, _⟩ => rfl

/-- The whole-array function at one element: the array's element plus the bias row's element of the same column, then the
    maximum with the zero word's value. -/
theorem spec_apply (A : FVec Ideal Cert.ReferenceIdeal.S50000x128 .f32) (B : FVec Ideal Cert.ReferenceIdeal.S1x128 .f32)
    (i : Cert.ReferenceIdeal.S50000x128.Idx) :
    Cert.Spec.biasRelu A B i
      = max (A i + B (ix2 (0 : Fin 1) (i 1 : Fin 128))) (Ideal.ofBits .f32 0x00000000#32) := by
  unfold Cert.Spec.biasRelu
  rw [maximumf_apply, addf_apply]
  refine congrArg₂ (fun z w => max (A i + z) w) ?_ ?_
  · refine broadcastInDim_apply _ _ B i (ix2 (0 : Fin 1) (i 1 : Fin 128)) fun a => ?_
    match a with
    | ⟨0, _⟩ => rfl
    | ⟨1, _⟩ => rfl
  · refine (broadcastInDim_apply _ _ _ i ix0 fun a => a.elim0).trans ?_
    exact constant_apply _ _

/-- The index maps, decided once over the ten grid points: the input block moves with the output block along the rows,
    the bias row is always block (0, 0), and the output's row block index stays below ten. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every one of the ten row blocks is some grid point's. -/
theorem idx_onto : ∀ q : Fin 10, ∃ t : Fin cfg1.N, win1_2.index t = ![q.val, 0] :=
  (by decide +kernel : ∀ q : Fin 10, ∃ t : Fin grid1.N, win1_2.index t = ![q.val, 0])

/-- The input window's block at a point is the array read at the block's place. -/
theorem input_block_apply (t : Fin cfg1.N) (y : S5000x128.Idx) :
    iblk1 V c 0 t y = V c main_v43 (((cfg1.win 0).blk t).view.emb y) := by
  unfold iblk1
  rfl

/-- The bias window's block at a point is the bias row read at the block's place. -/
theorem bias_block_apply (t : Fin cfg1.N) (y : S1x128.Idx) :
    iblk1 V c 1 t y = V c main_v44 (((cfg1.win 1).blk t).view.emb y) := by
  unfold iblk1
  rfl

/-- The input block and the output block of a point sit at the same place of their arrays. -/
theorem input_place_eq (t : Fin cfg1.N) (y : S5000x128.Idx) :
    ((cfg1.win 0).blk t).view.emb y = ((cfg1.win 2).blk t).view.emb y := by
  obtain ⟨e0, e1, e2, e3, e4, e5⟩ := idx_facts t
  funext a; apply Fin.ext
  match a with
  | ⟨0, _⟩ => show win1_0.index t (0 : Fin 2) * 5000 + 1 * (y 0).val = win1_2.index t (0 : Fin 2) * 5000 + 1 * (y 0).val; omega
  | ⟨1, _⟩ => show win1_0.index t (1 : Fin 2) * 128 + 1 * (y 1).val = win1_2.index t (1 : Fin 2) * 128 + 1 * (y 1).val; omega

/-- The bias block is the whole bias row: column `q` of it is column `q` of the row, which is also the column of the
    output element the point writes at column `q` of its block. -/
theorem bias_place_eq (t : Fin cfg1.N) (p : Fin 5000) (q : Fin 128) :
    ((cfg1.win 1).blk t).view.emb (ix2 (0 : Fin 1) q)
      = ix2 (0 : Fin 1) ((((cfg1.win 2).blk t).view.emb (ix2 p q)) 1) := by
  obtain ⟨e0, e1, e2, e3, e4, e5⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = win1_2.index t (1 : Fin 2) * 128 + 1 * q.val; omega

/-- One element of what a point's body computes from its two blocks is the whole-array function at the element's place in
    the output array. -/
theorem point_apply (t : Fin cfg1.N) (x0 : Vec Ideal S5000x128 .f32) (x1 : Vec Ideal S1x128 .f32)
    (h0 : ∀ y, x0 y = V c main_v43 (((cfg1.win 0).blk t).view.emb y))
    (h1 : ∀ y, x1 y = V c main_v44 (((cfg1.win 1).blk t).view.emb y)) (j : S5000x128.Idx) :
    k1_pay1 x0 x1 j = Cert.Spec.biasRelu (V c main_v43) (V c main_v44) (((cfg1.win 2).blk t).view.emb j) := by
  obtain ⟨p, q, rfl⟩ : ∃ (p : Fin 5000) (q : Fin 128), j = ix2 p q := ⟨j 0, j 1, eq_ix2 j⟩
  rw [pay_apply, h0, h1, input_place_eq, bias_place_eq t p q, spec_apply]
  rfl

/-- What a point writes back is its block of the whole-array function of the two arrays as the region finds them. -/
theorem flushed_eq (t : Fin cfg1.N) :
    (dat1 V c).flushed 2 t = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  show k1_pay1 (iblk1 V c 0 t) (iblk1 V c 1 t) j = Cert.Spec.biasRelu (V c main_v43) (V c main_v44) (((cfg1.win 2).blk t).view.emb j)
  exact point_apply V c t _ _ (input_block_apply V c t) (bias_block_apply V c t) j

/-- An element of the output array is in a point's block exactly when each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks of 5000 rows cover the array: row `r` is in the block of index `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after its ten points: the bias row added to every row of the input array, then the maximum with zero. -/
theorem final : (dat1 (F := Ideal) V c).arrAt 2 cfg1.N = Cert.Spec.biasRelu (V c main_v43) (V c main_v44) :=
  (dat1 V c).arrAt_eq_of_cover 2 (Cert.Spec.biasRelu (V c main_v43) (V c main_v44)) (fun t _ => flushed_eq V c t) cover

end Cert.KernelIdeal.Region1

end
-- ==== Proof.Region2.lean ====
/-
  The second matrix product, block by block.  The region runs ten grid points; point t multiplies rows
  5000 t … 5000 t + 4999 of the first layer's output by the whole 128 × 64 weight matrix and writes the result to the same
  rows of the output.  On the extended reals the cast to the same shape and the roundings to bf16 are the identity and
  the accumulator starts at zero, so the element (p, q) a point writes is the sum over k < 128 of x(p, k) · w(k, q); the
  whole-array product at (r, q) is the same sum with the array's row r.  Since row r lies in exactly the block r / 5000,
  the ten blocks together are the whole product.
-/
import proofs.«143281_j47304769798459_1_alg».proof.Proof.Gen.KernelIdeal.Frame
import proofs.«143281_j47304769798459_1_alg».proof.Proof.Gen.ReferenceIdeal
import proofs.«143281_j47304769798459_1_alg».proof.Proof.Spec
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen
open Idealize.ShloMosaic Idealize.ShloMosaic.TcCoe Idealize.SL.Sem
open Idealize.ShloMosaic.ValueIdx

/-! ## The two matrix products read at an index

The kernel multiplies one block of 5000 rows by the whole weight matrix; the reference multiplies all 50000 rows at
once. Each is a sum over the one contracted axis; both sums are re-indexed to `Fin 128`. -/

/-- The block product's dimension numbers: rows of the left factor against columns of the right. -/
abbrev dotBlk : DotDims S5000x128 S128x64 S5000x64 := dot_S5000x128_S128x64_S5000x64_1_0_0_1_n_n

/-- The whole product's dimension numbers. -/
abbrev dotAll : DotDims S50000x128 S128x64 S50000x64 :=
  Cert.ReferenceIdeal.dot_S50000x128_S128x64_S50000x64_1_0_0_1_n_n

/-- The left factor's row coordinate is the output's row. -/
theorem dotBlk_lhs_row (i : S5000x64.Idx) (s : dotBlk.contr.Idx) : (dotBlk.lhsIdx i s 0).val = (i 0).val := by
  unfold DotDims.lhsIdx
  rw [dif_neg (show ¬(0 : Fin S5000x128.rank) ∈ dotBlk.lhsBatch by decide),
    dif_pos (show (0 : Fin S5000x128.rank) ∈ dotBlk.lhsNonContracting by decide)]
  rfl

/-- The left factor's column coordinate is the contraction position. -/
theorem dotBlk_lhs_col (i : S5000x64.Idx) (s : dotBlk.contr.Idx) :
    (dotBlk.lhsIdx i s 1).val = (s ⟨0, by decide⟩).val :=
  dotBlk.lhsIdx_val_of_single rfl i s

/-- The right factor's row coordinate is the contraction position. -/
theorem dotBlk_rhs_row (i : S5000x64.Idx) (s : dotBlk.contr.Idx) :
    (dotBlk.rhsIdx i s 0).val = (s ⟨0, by decide⟩).val :=
  dotBlk.rhsIdx_val_of_single rfl i s

/-- The right factor's column coordinate is the output's column. -/
theorem dotBlk_rhs_col (i : S5000x64.Idx) (s : dotBlk.contr.Idx) : (dotBlk.rhsIdx i s 1).val = (i 1).val := by
  unfold DotDims.rhsIdx
  rw [dif_neg (show ¬(1 : Fin S128x64.rank) ∈ dotBlk.rhsBatch by decide),
    dif_pos (show (1 : Fin S128x64.rank) ∈ dotBlk.rhsNonContracting by decide)]
  rfl

/-- The left factor's index at output position (p, q) and contraction position k is (p, k). -/
theorem dotBlk_lhs (p : Fin 5000) (q : Fin 64) (k : Fin 128) :
    dotBlk.lhsIdx (ix2 p q) ((contrEquiv1 dotBlk 128 rfl rfl).symm k) = ix2 p k := by
  have hk := contrEquiv1_symm_val dotBlk 128 rfl rfl k
  funext a; apply Fin.ext
  match a with
  | ⟨0, _⟩ => exact dotBlk_lhs_row _ _
  | ⟨1, _⟩ => exact (dotBlk_lhs_col _ _).trans hk

/-- The right factor's index at output position (p, q) and contraction position k is (k, q). -/
theorem dotBlk_rhs (p : Fin 5000) (q : Fin 64) (k : Fin 128) :
    dotBlk.rhsIdx (ix2 p q) ((contrEquiv1 dotBlk 128 rfl rfl).symm k) = ix2 k q := by
  have hk := contrEquiv1_symm_val dotBlk 128 rfl rfl k
  funext a; apply Fin.ext
  match a with
  | ⟨0, _⟩ => exact (dotBlk_rhs_row _ _).trans hk
  | ⟨1, _⟩ => exact dotBlk_rhs_col _ _

/-- The left factor's row coordinate is the output's row. -/
theorem dotAll_lhs_row (i : S50000x64.Idx) (s : dotAll.contr.Idx) : (dotAll.lhsIdx i s 0).val = (i 0).val := by
  unfold DotDims.lhsIdx
  rw [dif_neg (show ¬(0 : Fin S50000x128.rank) ∈ dotAll.lhsBatch by decide),
    dif_pos (show (0 : Fin S50000x128.rank) ∈ dotAll.lhsNonContracting by decide)]
  rfl

/-- The left factor's column coordinate is the contraction position. -/
theorem dotAll_lhs_col (i : S50000x64.Idx) (s : dotAll.contr.Idx) :
    (dotAll.lhsIdx i s 1).val = (s ⟨0, by decide⟩).val :=
  dotAll.lhsIdx_val_of_single rfl i s

/-- The right factor's row coordinate is the contraction position. -/
theorem dotAll_rhs_row (i : S50000x64.Idx) (s : dotAll.contr.Idx) :
    (dotAll.rhsIdx i s 0).val = (s ⟨0, by decide⟩).val :=
  dotAll.rhsIdx_val_of_single rfl i s

/-- The right factor's column coordinate is the output's column. -/
theorem dotAll_rhs_col (i : S50000x64.Idx) (s : dotAll.contr.Idx) : (dotAll.rhsIdx i s 1).val = (i 1).val := by
  unfold DotDims.rhsIdx
  rw [dif_neg (show ¬(1 : Fin S128x64.rank) ∈ dotAll.rhsBatch by decide),
    dif_pos (show (1 : Fin S128x64.rank) ∈ dotAll.rhsNonContracting by decide)]
  rfl

/-- The left factor's index at output position (p, q) and contraction position k is (p, k). -/
theorem dotAll_lhs (p : Fin 50000) (q : Fin 64) (k : Fin 128) :
    dotAll.lhsIdx (ix2 p q) ((contrEquiv1 dotAll 128 rfl rfl).symm k) = ix2 p k := by
  have hk := contrEquiv1_symm_val dotAll 128 rfl rfl k
  funext a; apply Fin.ext
  match a with
  | ⟨0, _⟩ => exact dotAll_lhs_row _ _
  | ⟨1, _⟩ => exact (dotAll_lhs_col _ _).trans hk

/-- The right factor's index at output position (p, q) and contraction position k is (k, q). -/
theorem dotAll_rhs (p : Fin 50000) (q : Fin 64) (k : Fin 128) :
    dotAll.rhsIdx (ix2 p q) ((contrEquiv1 dotAll 128 rfl rfl).symm k) = ix2 k q := by
  have hk := contrEquiv1_symm_val dotAll 128 rfl rfl k
  funext a; apply Fin.ext
  match a with
  | ⟨0, _⟩ => exact (dotAll_rhs_row _ _).trans hk
  | ⟨1, _⟩ => exact dotAll_rhs_col _ _

/-- The block product at (p, q): the cast to the same shape and the bf16 roundings are the identity on the extended reals and the
    accumulator is zero, so it is the sum over k of x(p, k) · w(k, q). -/
theorem pay_apply (x : Vec Ideal S5000x128 .f32) (w : Vec Ideal S128x64 .f32) (p : Fin 5000) (q : Fin 64) :
    k2_pay1 (F := Ideal) x w (ix2 p q) = ∑ k : Fin 128, x (ix2 p k) * w (ix2 k q) := by
  unfold k2_pay1
  rw [shapeCast_self]
  refine (Ideal.matmul_constant_zero_apply dotBlk none _ _ (ix2 p q)).trans ?_
  rw [← Equiv.sum_comp (contrEquiv1 dotBlk 128 rfl rfl).symm]
  refine Finset.sum_congr rfl fun k _ => ?_
  rw [dotBlk_lhs, dotBlk_rhs]
  rfl

/-- The whole product at (r, q): the sum over k of X(r, k) · W(k, q). -/
theorem spec_apply (X : Vec Ideal S50000x128 .f32) (W : Vec Ideal S128x64 .f32) (r : Fin 50000) (q : Fin 64) :
    Cert.Spec.mm2 X W (ix2 r q) = ∑ k : Fin 128, X (ix2 r k) * W (ix2 k q) := by
  unfold Cert.Spec.mm2
  simp only [Host.dotGeneral]
  rw [Ideal.dotGeneral_apply, ← Equiv.sum_comp (contrEquiv1 dotAll 128 rfl rfl).symm]
  refine Finset.sum_congr rfl fun k _ => ?_
  rw [dotAll_lhs, dotAll_rhs]

/-- One element: when the block's row p is the array's row r and the block's weights are the array's, the block
    product at (p, q) is the whole product at (r, q). -/
theorem block_point (X : Vec Ideal S50000x128 .f32) (W : Vec Ideal S128x64 .f32)
    (x : Vec Ideal S5000x128 .f32) (w : Vec Ideal S128x64 .f32) (p : Fin 5000) (q : Fin 64) (r : Fin 50000)
    (hx : ∀ k : Fin 128, x (ix2 p k) = X (ix2 r k)) (hw : ∀ k : Fin 128, w (ix2 k q) = W (ix2 k q)) :
    k2_pay1 (F := Ideal) x w (ix2 p q) = Cert.Spec.mm2 X W (ix2 r q) := by
  rw [pay_apply, spec_apply]
  exact Finset.sum_congr rfl fun k _ => by rw [hx k, hw k]

variable (V : (c : Dev nD) → (b : Ref sig .tc) → Buf (Elt Ideal) ((c : Thread nD τ).loc b)) (c : Dev nD)

/-! ## From blocks to the array

Grid point t holds block `t` of the rows: window 0 and the output window move together down the rows, window 1 is the
whole weight matrix at every point. -/

theorem hz : (![0, 0] : Fin 2 → Nat) = fun _ => 0 := funext fun a => by fin_cases a <;> rfl

/-- The index maps, decided once over the ten grid points: the input rows' block index is the output's, every
    other block index is 0, and the output's row-block index is at most 9. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 9 ∧ win2_2.index t (1 : Fin 2) = 0 :=
  (by decide +kernel : ∀ t : Fin grid2.N, _)

/-- Every one of the ten row blocks is some grid point's. -/
theorem idx_onto : ∀ b : Fin 10, ∃ t : Fin cfg2.N, win2_2.index t = ![b.val, 0] :=
  (by decide +kernel : ∀ b : Fin 10, ∃ t : Fin grid2.N, win2_2.index t = ![b.val, 0])

/-- Window 0's block at point t, element (p, k), is the input array's element (r, k) for the row r the block's
    offset puts p at. -/
theorem rows_block (t : Fin cfg2.N) (p : Fin 5000) (k : Fin 128) (r : Fin 50000)
    (hr : r.val = win2_0.index t (0 : Fin 2) * 5000 + p.val) (h1 : win2_0.index t (1 : Fin 2) = 0) :
    iblk2 (F := Ideal) V c 0 t (ix2 p k) = V c main_v45 (ix2 r k) := by
  unfold iblk2
  rw [View.read_apply]
  show V c main_v45 (((cfg2.win 0).blk t).view.emb (ix2 p k)) = V c main_v45 (ix2 r k)
  refine congrArg (V c main_v45) ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- Window 1's block at any point is the whole weight matrix. -/
theorem weights_block (t : Fin cfg2.N) (k : Fin 128) (q : Fin 64)
    (h0 : win2_1.index t (0 : Fin 2) = 0) (h1 : win2_1.index t (1 : Fin 2) = 0) :
    iblk2 (F := Ideal) V c 1 t (ix2 k q) = V c main_arg4 (ix2 k q) := by
  unfold iblk2
  rw [View.read_apply]
  show V c main_arg4 (((cfg2.win 1).blk t).view.emb (ix2 k q)) = V c main_arg4 (ix2 k q)
  refine congrArg (V c main_arg4) ?_
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- What point t writes back is block t of the whole product. -/
theorem flushed_eq (t : Fin cfg2.N) :
    (dat2 (F := Ideal) V c).flushed 2 t
      = ((cfg2.win 2).blk t).view.read (Elt Ideal) (Cert.Spec.mm2 (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have hp : p.val < 5000 := p.isLt
  -- the array index the output block puts (p, q) at: row 5000·(block index) + p, column q
  have hi : ((cfg2.win 2).blk t).view.emb (ix2 p q)
      = ix2 (⟨win2_2.index t (0 : Fin 2) * 5000 + p.val, by omega⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  show k2_pay1 (F := Ideal) (iblk2 V c 0 t) (iblk2 V c 1 t) (ix2 p q)
    = Cert.Spec.mm2 (V c main_v45) (V c main_arg4) (((cfg2.win 2).blk t).view.emb (ix2 p q))
  rw [hi]
  exact block_point _ _ _ _ p q _
    (fun k => rows_block V c t p k _ (by show win2_2.index t (0 : Fin 2) * 5000 + p.val = _; omega) e1)
    (fun k => weights_block V c t k q e2 e3)

/-- An array index is in point t's block iff each coordinate is in the block's range on its axis. -/
theorem mem_blk (t : Fin cfg2.N) (i : S50000x64.Idx) :
    i ∈ ((cfg2.win 2).blk t).view.set
      ↔ ∀ a : Fin 2, win2_2.index t a * S5000x64.size a ≤ (i a).val
          ∧ (i a).val < win2_2.index t a * S5000x64.size a + S5000x64.size a := by
  show i ∈ ((View.whole main_v46).slice (win2_2.rect t)).set ↔ _
  rw [View.set_slice_whole, Rect.mem_set_unit]
  exact Iff.rfl

/-- Every array index is in some point's block: row r is in block r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The region's output array after its ten points is the whole product of the arrays it was entered with. -/
theorem final : (dat2 (F := Ideal) V c).arrAt 2 cfg2.N = Cert.Spec.mm2 (V c main_v45) (V c main_arg4) :=
  (dat2 V c).arrAt_eq_of_cover 2 (Cert.Spec.mm2 (V c main_v45) (V c main_arg4))
    (fun t _ => flushed_eq V c t) cover

end Cert.KernelIdeal.Region2

end
-- ==== Proof.Region3.lean ====
/-
  The second layer's bias step, block by block, is the whole-array bias step.

  The region runs over ten grid points.  Point `t` reads rows `5000 t … 5000 t + 4999` of the [50000, 64] input array and
  the whole [1, 64] bias row, and writes the same rows of the output array.  The element it writes at row `y`, column `q` of
  its block is the input block's element there plus the bias row's element of column `q`; read at the element's place
  `(5000 t + y, q)` of the arrays this is the whole-array function "add the bias row to every row" at that place.  Every
  row `r` of the output lies in the block of the one point with block index `r / 5000`, so after the ten points the output
  array is that function of the input array and the bias row.  No arithmetic law is used: both sides are the same sum of
  the same two elements, index by index.
-/
import proofs.«143281_j47304769798459_1_alg».proof.Proof.Gen.KernelIdeal.Frame
import proofs.«143281_j47304769798459_1_alg».proof.Proof.Gen.ReferenceIdeal
import proofs.«143281_j47304769798459_1_alg».proof.Proof.Spec
import Idealize.ShloMosaic.Lib.Pipeline.Value
import Idealize.ShloMosaic.Lib.ValueIdx
import Idealize.ShloMosaic.PureOps.Ideal.Laws

noncomputable section

namespace Cert.KernelIdeal.Region3

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-buffer access, as the constant function. -/
theorem hz : (![0, 0] : Fin 2 → Nat) = fun _ => 0 := funext fun a => by fin_cases a <;> rfl

/-- The body's arithmetic at one element of the block: the block's element plus the bias row's element of the same column. -/
theorem pay_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [shapeCast_self, shapeCast_self, addf_apply]
  refine congrArg (x0 (ix2 p q) + ·) ?_
  refine broadcastTo_apply x1 _ (ix2 p q) (ix2 (0 : Fin 1) q) fun a => ?_
  match a with
  | ⟨0, _⟩ => rfl
  | ⟨1, _⟩ => rfl

/-- The whole-array function at one element: the array's element plus the bias row's element of the same column. -/
theorem spec_apply (A : FVec Ideal Cert.ReferenceIdeal.S50000x64 .f32) (B : FVec Ideal Cert.ReferenceIdeal.S1x64 .f32)
    (i : Cert.ReferenceIdeal.S50000x64.Idx) :
    Cert.Spec.bias A B i = A i + B (ix2 (0 : Fin 1) (i 1 : Fin 64)) := by
  unfold Cert.Spec.bias
  rw [addf_apply]
  refine congrArg (A i + ·) ?_
  refine broadcastInDim_apply _ _ B i (ix2 (0 : Fin 1) (i 1 : Fin 64)) fun a => ?_
  match a with
  | ⟨0, _⟩ => rfl
  | ⟨1, _⟩ => rfl

/-- The index maps, decided once over the ten grid points: the input block moves with the output block along the rows,
    the bias row is always block (0, 0), and the output's row block index stays below ten. -/
theorem idx_facts : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

/-- Every one of the ten row blocks is some grid point's. -/
theorem idx_onto : ∀ q : Fin 10, ∃ t : Fin cfg3.N, win3_2.index t = ![q.val, 0] :=
  (by decide +kernel : ∀ q : Fin 10, ∃ t : Fin grid3.N, win3_2.index t = ![q.val, 0])

/-- The input window's block at a point is the array read at the block's place. -/
theorem input_block_apply (t : Fin cfg3.N) (y : S5000x64.Idx) :
    iblk3 V c 0 t y = V c main_v59 (((cfg3.win 0).blk t).view.emb y) := by
  unfold iblk3
  rfl

/-- The bias window's block at a point is the bias row read at the block's place. -/
theorem bias_block_apply (t : Fin cfg3.N) (y : S1x64.Idx) :
    iblk3 V c 1 t y = V c main_v60 (((cfg3.win 1).blk t).view.emb y) := by
  unfold iblk3
  rfl

/-- The input block and the output block of a point sit at the same place of their arrays. -/
theorem input_place_eq (t : Fin cfg3.N) (y : S5000x64.Idx) :
    ((cfg3.win 0).blk t).view.emb y = ((cfg3.win 2).blk t).view.emb y := by
  obtain ⟨e0, e1, e2, e3, e4, e5⟩ := idx_facts t
  funext a; apply Fin.ext
  match a with
  | ⟨0, _⟩ => show win3_0.index t (0 : Fin 2) * 5000 + 1 * (y 0).val = win3_2.index t (0 : Fin 2) * 5000 + 1 * (y 0).val; omega
  | ⟨1, _⟩ => show win3_0.index t (1 : Fin 2) * 64 + 1 * (y 1).val = win3_2.index t (1 : Fin 2) * 64 + 1 * (y 1).val; omega

/-- The bias block is the whole bias row: column `q` of it is column `q` of the row, which is also the column of the
    output element the point writes at column `q` of its block. -/
theorem bias_place_eq (t : Fin cfg3.N) (p : Fin 5000) (q : Fin 64) :
    ((cfg3.win 1).blk t).view.emb (ix2 (0 : Fin 1) q)
      = ix2 (0 : Fin 1) ((((cfg3.win 2).blk t).view.emb (ix2 p q)) 1) := by
  obtain ⟨e0, e1, e2, e3, e4, e5⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = win3_2.index t (1 : Fin 2) * 64 + 1 * q.val; omega

/-- One element of what a point's body computes from its two blocks is the whole-array function at the element's place in
    the output array. -/
theorem point_apply (t : Fin cfg3.N) (x0 : Vec Ideal S5000x64 .f32) (x1 : Vec Ideal S1x64 .f32)
    (h0 : ∀ y, x0 y = V c main_v59 (((cfg3.win 0).blk t).view.emb y))
    (h1 : ∀ y, x1 y = V c main_v60 (((cfg3.win 1).blk t).view.emb y)) (j : S5000x64.Idx) :
    k3_pay1 x0 x1 j = Cert.Spec.bias (V c main_v59) (V c main_v60) (((cfg3.win 2).blk t).view.emb j) := by
  obtain ⟨p, q, rfl⟩ : ∃ (p : Fin 5000) (q : Fin 64), j = ix2 p q := ⟨j 0, j 1, eq_ix2 j⟩
  rw [pay_apply, h0, h1, input_place_eq, bias_place_eq t p q, spec_apply]
  rfl

/-- What a point writes back is its block of the whole-array function of the two arrays as the region finds them. -/
theorem flushed_eq (t : Fin cfg3.N) :
    (dat3 V c).flushed 2 t = ((cfg3.win 2).blk t).view.read (Elt Ideal) (Cert.Spec.bias (V c main_v59) (V c main_v60)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  show k3_pay1 (iblk3 V c 0 t) (iblk3 V c 1 t) j = Cert.Spec.bias (V c main_v59) (V c main_v60) (((cfg3.win 2).blk t).view.emb j)
  exact point_apply V c t _ _ (input_block_apply V c t) (bias_block_apply V c t) j

/-- An element of the output array is in a point's block exactly when each coordinate is in the block's range. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten blocks of 5000 rows cover the array: row `r` is in the block of index `r / 5000`. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The region's output array after its ten points: the bias row added to every row of the input array. -/
theorem final : (dat3 (F := Ideal) V c).arrAt 2 cfg3.N = Cert.Spec.bias (V c main_v59) (V c main_v60) :=
  (dat3 V c).arrAt_eq_of_cover 2 (Cert.Spec.bias (V c main_v59) (V c main_v60)) (fun t _ => flushed_eq V c t) cover

end Cert.KernelIdeal.Region3

end
-- ==== Proof.HostStretch.lean ====
/-
  The kernel program's host operations between its four regions, read as functions of what the buffers hold when a stretch
  begins: the edge columns, the edges' normalisation, the two aggregations, the bias rows; and the buffers a stretch leaves alone.
-/
import proofs.«143281_j47304769798459_1_alg».proof.Proof.Gen.KernelIdeal.Launch
import proofs.«143281_j47304769798459_1_alg».proof.Proof.Gen.ReferenceIdeal
import proofs.«143281_j47304769798459_1_alg».proof.Proof.Stages
import Idealize.ShloMosaic.Lib.StableHlo.Run
import Idealize.ShloMosaic.Lib.Pipeline.Value

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-! ## A vector as a one-row matrix: the reshape and the broadcast along the new axis are one function -/

theorem row_eq {n : Nat} (hn : n ≠ 1) (x : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ x h = broadcastInDim ⟨2, ![1, n]⟩ ![1] h' x := by
  funext j
  refine (shapeCast_addUnit_apply (n := 1) ![n] x h j).trans ?_
  refine (broadcastInDim_apply ![1] h' x j (fun a => j a.succ) (fun a => ?_)).symm
  have ha : a = 0 := Subsingleton.elim _ _
  subst ha
  rw [if_neg (show (⟨1, ![n]⟩ : Shape).size 0 ≠ 1 from hn)]
  rfl

variable (W : Valuation τ sig (Elt Ideal))

/-! ## The first stretch: the edge columns, the degree's comparison with zero and its inverse square root -/

theorem a_v3 : (after hostOps0 W (Proc.devRef .tc main_v3) : IVec S850000 32) = Cert.Stages.src (W (Proc.devRef .tc main_arg1)) := by
  simp only [hostOps0]; after_results; rfl
theorem a_v6 : (after hostOps0 W (Proc.devRef .tc main_v6) : IVec S850000 32) = Cert.Stages.dst (W (Proc.devRef .tc main_arg1)) := by
  simp only [hostOps0]; after_results; rfl
set_option maxHeartbeats 2000000 in
theorem a_v12 : (after hostOps0 W (Proc.devRef .tc main_v12) : IVec S50000 1)
    = cmpf (F := Ideal) .ogt (Cert.Stages.deg (Cert.Stages.dst (W (Proc.devRef .tc main_arg1))))
        (broadcastInDim S50000 ![] bcast_S_S50000 (constant (F := Ideal) S_ .f32 0x00000000#32)) := by
  simp only [hostOps0]; after_results; rfl
set_option maxHeartbeats 2000000 in
theorem a_v13 : (after hostOps0 W (Proc.devRef .tc main_v13) : FVec Ideal S50000 .f32)
    = Host.rsqrt (F := Ideal) (Cert.Stages.deg (Cert.Stages.dst (W (Proc.devRef .tc main_arg1)))) := by
  simp only [hostOps0]; after_results; rfl
theorem a_cst2 : (after hostOps0 W (Proc.devRef .tc main_cst_2) : FVec Ideal S_ .f32) = constant (F := Ideal) S_ .f32 0x00000000#32 := by
  simp only [hostOps0]; after_results
theorem a_arg0 : after hostOps0 W (Proc.devRef .tc main_arg0) = W (Proc.devRef .tc main_arg0) := by
  simp only [hostOps0]; after_results
theorem a_arg2 : after hostOps0 W (Proc.devRef .tc main_arg2) = W (Proc.devRef .tc main_arg2) := by
  simp only [hostOps0]; after_results
theorem a_arg3 : after hostOps0 W (Proc.devRef .tc main_arg3) = W (Proc.devRef .tc main_arg3) := by
  simp only [hostOps0]; after_results
theorem a_arg4 : after hostOps0 W (Proc.devRef .tc main_arg4) = W (Proc.devRef .tc main_arg4) := by
  simp only [hostOps0]; after_results
theorem a_arg5 : after hostOps0 W (Proc.devRef .tc main_arg5) = W (Proc.devRef .tc main_arg5) := by
  simp only [hostOps0]; after_results

/-! ## The second stretch: the inverse square-root degree where the degree is positive, zero elsewhere -/

theorem b_v14 : (after hostOps0_1 W (Proc.devRef .tc main_v14) : FVec Ideal S50000 .f32)
    = select (W (Proc.devRef .tc main_v12) : IVec S50000 1) (W (Proc.devRef .tc main_v13) : FVec Ideal S50000 .f32)
        (broadcastInDim S50000 ![] bcast_S_S50000 (id (W (Proc.devRef .tc main_cst_2) : FVec Ideal S_ .f32))) := by
  simp only [hostOps0_1]; after_results; rfl
theorem b_v3 : after hostOps0_1 W (Proc.devRef .tc main_v3) = W (Proc.devRef .tc main_v3) := by
  simp only [hostOps0_1]; after_results
theorem b_v6 : after hostOps0_1 W (Proc.devRef .tc main_v6) = W (Proc.devRef .tc main_v6) := by
  simp only [hostOps0_1]; after_results
theorem b_arg0 : after hostOps0_1 W (Proc.devRef .tc main_arg0) = W (Proc.devRef .tc main_arg0) := by
  simp only [hostOps0_1]; after_results
theorem b_arg2 : after hostOps0_1 W (Proc.devRef .tc main_arg2) = W (Proc.devRef .tc main_arg2) := by
  simp only [hostOps0_1]; after_results
theorem b_arg3 : after hostOps0_1 W (Proc.devRef .tc main_arg3) = W (Proc.devRef .tc main_arg3) := by
  simp only [hostOps0_1]; after_results
theorem b_arg4 : after hostOps0_1 W (Proc.devRef .tc main_arg4) = W (Proc.devRef .tc main_arg4) := by
  simp only [hostOps0_1]; after_results
theorem b_arg5 : after hostOps0_1 W (Proc.devRef .tc main_arg5) = W (Proc.devRef .tc main_arg5) := by
  simp only [hostOps0_1]; after_results

/-! ## The third stretch: the edges' normalisation -/

theorem c_v29 : (after hostOps0_2 W (Proc.devRef .tc main_v29) : FVec Ideal S850000 .f32)
    = Cert.Stages.norm (W (Proc.devRef .tc main_v3)) (W (Proc.devRef .tc main_v6)) (W (Proc.devRef .tc main_v14)) := by
  simp only [hostOps0_2]; after_results; rfl
theorem c_v3 : after hostOps0_2 W (Proc.devRef .tc main_v3) = W (Proc.devRef .tc main_v3) := by
  simp only [hostOps0_2]; after_results
theorem c_v6 : after hostOps0_2 W (Proc.devRef .tc main_v6) = W (Proc.devRef .tc main_v6) := by
  simp only [hostOps0_2]; after_results
theorem c_arg0 : after hostOps0_2 W (Proc.devRef .tc main_arg0) = W (Proc.devRef .tc main_arg0) := by
  simp only [hostOps0_2]; after_results
theorem c_arg2 : after hostOps0_2 W (Proc.devRef .tc main_arg2) = W (Proc.devRef .tc main_arg2) := by
  simp only [hostOps0_2]; after_results
theorem c_arg3 : after hostOps0_2 W (Proc.devRef .tc main_arg3) = W (Proc.devRef .tc main_arg3) := by
  simp only [hostOps0_2]; after_results
theorem c_arg4 : after hostOps0_2 W (Proc.devRef .tc main_arg4) = W (Proc.devRef .tc main_arg4) := by
  simp only [hostOps0_2]; after_results
theorem c_arg5 : after hostOps0_2 W (Proc.devRef .tc main_arg5) = W (Proc.devRef .tc main_arg5) := by
  simp only [hostOps0_2]; after_results

/-! ## Between the first and the second region: the first aggregation and the first bias row -/

theorem d_v43 : (after hostOps1 W (Proc.devRef .tc main_v43) : FVec Ideal S50000x128 .f32)
    = Cert.Stages.agg128 (W (Proc.devRef .tc main_v30)) (W (Proc.devRef .tc main_v3)) (W (Proc.devRef .tc main_v6)) (W (Proc.devRef .tc main_v29)) := by
  simp only [hostOps1]; after_results; rfl
theorem d_v44 : (after hostOps1 W (Proc.devRef .tc main_v44) : FVec Ideal S1x128 .f32) = Cert.Stages.row128 (W (Proc.devRef .tc main_arg3)) := by
  simp only [hostOps1]; after_results
  exact row_eq (by decide) _ _ _
theorem d_v3 : after hostOps1 W (Proc.devRef .tc main_v3) = W (Proc.devRef .tc main_v3) := by
  simp only [hostOps1]; after_results
theorem d_v6 : after hostOps1 W (Proc.devRef .tc main_v6) = W (Proc.devRef .tc main_v6) := by
  simp only [hostOps1]; after_results
theorem d_v29 : after hostOps1 W (Proc.devRef .tc main_v29) = W (Proc.devRef .tc main_v29) := by
  simp only [hostOps1]; after_results
theorem d_arg4 : after hostOps1 W (Proc.devRef .tc main_arg4) = W (Proc.devRef .tc main_arg4) := by
  simp only [hostOps1]; after_results
theorem d_arg5 : after hostOps1 W (Proc.devRef .tc main_arg5) = W (Proc.devRef .tc main_arg5) := by
  simp only [hostOps1]; after_results

/-! ## Between the third and the fourth region: the second aggregation and the second bias row -/

theorem e_v59 : (after hostOps3 W (Proc.devRef .tc main_v59) : FVec Ideal S50000x64 .f32)
    = Cert.Stages.agg64 (W (Proc.devRef .tc main_v46)) (W (Proc.devRef .tc main_v3)) (W (Proc.devRef .tc main_v6)) (W (Proc.devRef .tc main_v29)) := by
  simp only [hostOps3]; after_results; rfl
theorem e_v60 : (after hostOps3 W (Proc.devRef .tc main_v60) : FVec Ideal S1x64 .f32) = Cert.Stages.row64 (W (Proc.devRef .tc main_arg5)) := by
  simp only [hostOps3]; after_results
  exact row_eq (by decide) _ _ _

end Cert.KernelIdeal.Stretch

end
-- ==== Proof.Thread.lean ====
/-
  The kernel program's result as a function of its arguments.  The buffer contents at the nine segment boundaries of @main are a
  fold over the launch memory: a stretch of host operations rewrites the buffers it writes, a region leaves its output array at
  what its ten grid points wrote back and every other buffer as it found it.  Reading the result buffer back through that fold,
  with each region's output the whole-array function of the arrays the region found, gives the two-layer network of the launch
  contents of the six arguments.
-/
import proofs.«143281_j47304769798459_1_alg».proof.Proof.Gen.KernelIdeal.Frame
import proofs.«143281_j47304769798459_1_alg».proof.Proof.HostStretch

set_option maxRecDepth 16384

noncomputable section

namespace Cert.KernelIdeal.Thread

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What each region leaves in its output array, as a whole-array function of the arrays it found (proved region by region). -/
structure Regions : Prop where
  r0 : ∀ (V : (c : Dev nD) → (b : Ref sig .tc) → Buf (Elt Ideal) ((c : Thread nD τ).loc b)) (c : Dev nD),
    (dat0 (F := Ideal) V c).arrAt 2 cfg0.N = Cert.Spec.mm1 (V c main_arg0) (V c main_arg2)
  r1 : ∀ (V : (c : Dev nD) → (b : Ref sig .tc) → Buf (Elt Ideal) ((c : Thread nD τ).loc b)) (c : Dev nD),
    (dat1 (F := Ideal) V c).arrAt 2 cfg1.N = Cert.Spec.biasRelu (V c main_v43) (V c main_v44)
  r2 : ∀ (V : (c : Dev nD) → (b : Ref sig .tc) → Buf (Elt Ideal) ((c : Thread nD τ).loc b)) (c : Dev nD),
    (dat2 (F := Ideal) V c).arrAt 2 cfg2.N = Cert.Spec.mm2 (V c main_v45) (V c main_arg4)
  r3 : ∀ (V : (c : Dev nD) → (b : Ref sig .tc) → Buf (Elt Ideal) ((c : Thread nD τ).loc b)) (c : Dev nD),
    (dat3 (F := Ideal) V c).arrAt 2 cfg3.N = Cert.Spec.bias (V c main_v59) (V c main_v60)

/-! ## At the first region's entry -/

theorem W3_v3 : (W3 m ρ c (Proc.devRef .tc main_v3) : IVec S850000 32) = Cert.Stages.src (m ((c.tc : Thread nD τ).loc main_arg1)) :=
  (Stretch.c_v3 _).trans ((Stretch.b_v3 _).trans (Stretch.a_v3 _))
theorem W3_v6 : (W3 m ρ c (Proc.devRef .tc main_v6) : IVec S850000 32) = Cert.Stages.dst (m ((c.tc : Thread nD τ).loc main_arg1)) :=
  (Stretch.c_v6 _).trans ((Stretch.b_v6 _).trans (Stretch.a_v6 _))
theorem W1_v12 : (W1 m ρ c (Proc.devRef .tc main_v12) : IVec S50000 1)
    = cmpf (F := Ideal) .ogt (Cert.Stages.deg (Cert.Stages.dst (m ((c.tc : Thread nD τ).loc main_arg1))))
        (broadcastInDim S50000 ![] bcast_S_S50000 (constant (F := Ideal) S_ .f32 0x00000000#32)) := Stretch.a_v12 _
theorem W1_v13 : (W1 m ρ c (Proc.devRef .tc main_v13) : FVec Ideal S50000 .f32)
    = Host.rsqrt (F := Ideal) (Cert.Stages.deg (Cert.Stages.dst (m ((c.tc : Thread nD τ).loc main_arg1)))) := Stretch.a_v13 _
theorem W1_cst2 : (W1 m ρ c (Proc.devRef .tc main_cst_2) : FVec Ideal S_ .f32) = constant (F := Ideal) S_ .f32 0x00000000#32 := Stretch.a_cst2 _
theorem W2_v14 : (W2 m ρ c (Proc.devRef .tc main_v14) : FVec Ideal S50000 .f32)
    = Cert.Stages.dinv (Cert.Stages.deg (Cert.Stages.dst (m ((c.tc : Thread nD τ).loc main_arg1)))) := by
  refine (Stretch.b_v14 _).trans ?_
  rw [W1_v12 m ρ c, W1_v13 m ρ c, W1_cst2 m ρ c]
  rfl
theorem W3_v29 : (W3 m ρ c (Proc.devRef .tc main_v29) : FVec Ideal S850000 .f32) = Cert.Stages.edgeNorm (m ((c.tc : Thread nD τ).loc main_arg1)) := by
  refine (Stretch.c_v29 _).trans ?_
  rw [show (W2 m ρ c (Proc.devRef .tc main_v3) : IVec S850000 32) = _ from (Stretch.b_v3 _).trans (Stretch.a_v3 _),
    show (W2 m ρ c (Proc.devRef .tc main_v6) : IVec S850000 32) = _ from (Stretch.b_v6 _).trans (Stretch.a_v6 _), W2_v14]
  rfl
theorem W3_arg0 : W3 m ρ c (Proc.devRef .tc main_arg0) = (m ((c.tc : Thread nD τ).loc main_arg0)) :=
  (Stretch.c_arg0 _).trans ((Stretch.b_arg0 _).trans (Stretch.a_arg0 _))
theorem W3_arg2 : W3 m ρ c (Proc.devRef .tc main_arg2) = (m ((c.tc : Thread nD τ).loc main_arg2)) :=
  (Stretch.c_arg2 _).trans ((Stretch.b_arg2 _).trans (Stretch.a_arg2 _))
theorem W3_arg3 : W3 m ρ c (Proc.devRef .tc main_arg3) = (m ((c.tc : Thread nD τ).loc main_arg3)) :=
  (Stretch.c_arg3 _).trans ((Stretch.b_arg3 _).trans (Stretch.a_arg3 _))
theorem W3_arg4 : W3 m ρ c (Proc.devRef .tc main_arg4) = (m ((c.tc : Thread nD τ).loc main_arg4)) :=
  (Stretch.c_arg4 _).trans ((Stretch.b_arg4 _).trans (Stretch.a_arg4 _))
theorem W3_arg5 : W3 m ρ c (Proc.devRef .tc main_arg5) = (m ((c.tc : Thread nD τ).loc main_arg5)) :=
  (Stretch.c_arg5 _).trans ((Stretch.b_arg5 _).trans (Stretch.a_arg5 _))

/-! ## After the first region: its output is the first layer's linear map of the arguments -/

theorem W4_v30 (hreg : Regions) : (W4 m ρ c (Proc.devRef .tc main_v30) : FVec Ideal S50000x128 .f32) = Cert.Spec.mm1 (m ((c.tc : Thread nD τ).loc main_arg0)) (m ((c.tc : Thread nD τ).loc main_arg2)) := by
  refine (W4_arr m ρ c 2).trans ((hreg.r0 (V3 m ρ) c).trans ?_)
  rw [show V3 m ρ c main_arg0 = _ from W3_arg0 m ρ c, show V3 m ρ c main_arg2 = _ from W3_arg2 m ρ c]
theorem W4_v3 : (W4 m ρ c (Proc.devRef .tc main_v3) : IVec S850000 32) = Cert.Stages.src (m ((c.tc : Thread nD τ).loc main_arg1)) :=
  (W4_of_ne m ρ c main_v3 (by decide)).trans (W3_v3 m ρ c)
theorem W4_v6 : (W4 m ρ c (Proc.devRef .tc main_v6) : IVec S850000 32) = Cert.Stages.dst (m ((c.tc : Thread nD τ).loc main_arg1)) :=
  (W4_of_ne m ρ c main_v6 (by decide)).trans (W3_v6 m ρ c)
theorem W4_v29 : (W4 m ρ c (Proc.devRef .tc main_v29) : FVec Ideal S850000 .f32) = Cert.Stages.edgeNorm (m ((c.tc : Thread nD τ).loc main_arg1)) :=
  (W4_of_ne m ρ c main_v29 (by decide)).trans (W3_v29 m ρ c)
theorem W4_arg3 : (W4 m ρ c (Proc.devRef .tc main_arg3) : FVec Ideal S128 .f32) = (m ((c.tc : Thread nD τ).loc main_arg3)) :=
  (W4_of_ne m ρ c main_arg3 (by decide)).trans (W3_arg3 m ρ c)
theorem W4_arg4 : (W4 m ρ c (Proc.devRef .tc main_arg4) : FVec Ideal S128x64 .f32) = (m ((c.tc : Thread nD τ).loc main_arg4)) :=
  (W4_of_ne m ρ c main_arg4 (by decide)).trans (W3_arg4 m ρ c)
theorem W4_arg5 : (W4 m ρ c (Proc.devRef .tc main_arg5) : FVec Ideal S64 .f32) = (m ((c.tc : Thread nD τ).loc main_arg5)) :=
  (W4_of_ne m ρ c main_arg5 (by decide)).trans (W3_arg5 m ρ c)

/-! ## At the second region's entry: the first aggregation and the first bias row -/

theorem W5_v43 (hreg : Regions) : (W5 m ρ c (Proc.devRef .tc main_v43) : FVec Ideal S50000x128 .f32) = Cert.Stages.agg128 (Cert.Spec.mm1 (m ((c.tc : Thread nD τ).loc main_arg0)) (m ((c.tc : Thread nD τ).loc main_arg2))) (Cert.Stages.src (m ((c.tc : Thread nD τ).loc main_arg1))) (Cert.Stages.dst (m ((c.tc : Thread nD τ).loc main_arg1))) (Cert.Stages.edgeNorm (m ((c.tc : Thread nD τ).loc main_arg1))) := by
  refine (Stretch.d_v43 _).trans ?_
  rw [W4_v30 m ρ c hreg, W4_v3 m ρ c, W4_v6 m ρ c, W4_v29 m ρ c]
theorem W5_v44 : (W5 m ρ c (Proc.devRef .tc main_v44) : FVec Ideal S1x128 .f32) = Cert.Stages.row128 (m ((c.tc : Thread nD τ).loc main_arg3)) := by
  refine (Stretch.d_v44 _).trans ?_
  rw [W4_arg3 m ρ c]
theorem W5_v3 : (W5 m ρ c (Proc.devRef .tc main_v3) : IVec S850000 32) = Cert.Stages.src (m ((c.tc : Thread nD τ).loc main_arg1)) :=
  (Stretch.d_v3 _).trans (W4_v3 m ρ c)
theorem W5_v6 : (W5 m ρ c (Proc.devRef .tc main_v6) : IVec S850000 32) = Cert.Stages.dst (m ((c.tc : Thread nD τ).loc main_arg1)) :=
  (Stretch.d_v6 _).trans (W4_v6 m ρ c)
theorem W5_v29 : (W5 m ρ c (Proc.devRef .tc main_v29) : FVec Ideal S850000 .f32) = Cert.Stages.edgeNorm (m ((c.tc : Thread nD τ).loc main_arg1)) :=
  (Stretch.d_v29 _).trans (W4_v29 m ρ c)
theorem W5_arg4 : (W5 m ρ c (Proc.devRef .tc main_arg4) : FVec Ideal S128x64 .f32) = (m ((c.tc : Thread nD τ).loc main_arg4)) :=
  (Stretch.d_arg4 _).trans (W4_arg4 m ρ c)
theorem W5_arg5 : (W5 m ρ c (Proc.devRef .tc main_arg5) : FVec Ideal S64 .f32) = (m ((c.tc : Thread nD τ).loc main_arg5)) :=
  (Stretch.d_arg5 _).trans (W4_arg5 m ρ c)

/-! ## After the second region: the first layer's activations -/

theorem W6_v45 (hreg : Regions) : (W6 m ρ c (Proc.devRef .tc main_v45) : FVec Ideal S50000x128 .f32) = Cert.Spec.biasRelu (Cert.Stages.agg128 (Cert.Spec.mm1 (m ((c.tc : Thread nD τ).loc main_arg0)) (m ((c.tc : Thread nD τ).loc main_arg2))) (Cert.Stages.src (m ((c.tc : Thread nD τ).loc main_arg1))) (Cert.Stages.dst (m ((c.tc : Thread nD τ).loc main_arg1))) (Cert.Stages.edgeNorm (m ((c.tc : Thread nD τ).loc main_arg1)))) (Cert.Stages.row128 (m ((c.tc : Thread nD τ).loc main_arg3))) := by
  refine (W6_arr m ρ c 2).trans ((hreg.r1 (V5 m ρ) c).trans ?_)
  rw [show V5 m ρ c main_v43 = _ from W5_v43 m ρ c hreg, show V5 m ρ c main_v44 = _ from W5_v44 m ρ c]
theorem W6_v3 : (W6 m ρ c (Proc.devRef .tc main_v3) : IVec S850000 32) = Cert.Stages.src (m ((c.tc : Thread nD τ).loc main_arg1)) :=
  (W6_of_ne m ρ c main_v3 (by decide)).trans (W5_v3 m ρ c)
theorem W6_v6 : (W6 m ρ c (Proc.devRef .tc main_v6) : IVec S850000 32) = Cert.Stages.dst (m ((c.tc : Thread nD τ).loc main_arg1)) :=
  (W6_of_ne m ρ c main_v6 (by decide)).trans (W5_v6 m ρ c)
theorem W6_v29 : (W6 m ρ c (Proc.devRef .tc main_v29) : FVec Ideal S850000 .f32) = Cert.Stages.edgeNorm (m ((c.tc : Thread nD τ).loc main_arg1)) :=
  (W6_of_ne m ρ c main_v29 (by decide)).trans (W5_v29 m ρ c)
theorem W6_arg4 : (W6 m ρ c (Proc.devRef .tc main_arg4) : FVec Ideal S128x64 .f32) = (m ((c.tc : Thread nD τ).loc main_arg4)) :=
  (W6_of_ne m ρ c main_arg4 (by decide)).trans (W5_arg4 m ρ c)
theorem W6_arg5 : (W6 m ρ c (Proc.devRef .tc main_arg5) : FVec Ideal S64 .f32) = (m ((c.tc : Thread nD τ).loc main_arg5)) :=
  (W6_of_ne m ρ c main_arg5 (by decide)).trans (W5_arg5 m ρ c)

/-! ## After the third region: the second layer's linear map -/

theorem W7_v46 (hreg : Regions) : (W7 m ρ c (Proc.devRef .tc main_v46) : FVec Ideal S50000x64 .f32) = Cert.Spec.mm2 (Cert.Spec.biasRelu (Cert.Stages.agg128 (Cert.Spec.mm1 (m ((c.tc : Thread nD τ).loc main_arg0)) (m ((c.tc : Thread nD τ).loc main_arg2))) (Cert.Stages.src (m ((c.tc : Thread nD τ).loc main_arg1))) (Cert.Stages.dst (m ((c.tc : Thread nD τ).loc main_arg1))) (Cert.Stages.edgeNorm (m ((c.tc : Thread nD τ).loc main_arg1)))) (Cert.Stages.row128 (m ((c.tc : Thread nD τ).loc main_arg3)))) (m ((c.tc : Thread nD τ).loc main_arg4)) := by
  refine (W7_arr m ρ c 2).trans ((hreg.r2 (V6 m ρ) c).trans ?_)
  rw [show V6 m ρ c main_v45 = _ from W6_v45 m ρ c hreg, show V6 m ρ c main_arg4 = _ from W6_arg4 m ρ c]
theorem W7_v3 : (W7 m ρ c (Proc.devRef .tc main_v3) : IVec S850000 32) = Cert.Stages.src (m ((c.tc : Thread nD τ).loc main_arg1)) :=
  (W7_of_ne m ρ c main_v3 (by decide)).trans (W6_v3 m ρ c)
theorem W7_v6 : (W7 m ρ c (Proc.devRef .tc main_v6) : IVec S850000 32) = Cert.Stages.dst (m ((c.tc : Thread nD τ).loc main_arg1)) :=
  (W7_of_ne m ρ c main_v6 (by decide)).trans (W6_v6 m ρ c)
theorem W7_v29 : (W7 m ρ c (Proc.devRef .tc main_v29) : FVec Ideal S850000 .f32) = Cert.Stages.edgeNorm (m ((c.tc : Thread nD τ).loc main_arg1)) :=
  (W7_of_ne m ρ c main_v29 (by decide)).trans (W6_v29 m ρ c)
theorem W7_arg5 : (W7 m ρ c (Proc.devRef .tc main_arg5) : FVec Ideal S64 .f32) = (m ((c.tc : Thread nD τ).loc main_arg5)) :=
  (W7_of_ne m ρ c main_arg5 (by decide)).trans (W6_arg5 m ρ c)

/-! ## At the fourth region's entry: the second aggregation and the second bias row -/

theorem W8_v59 (hreg : Regions) : (W8 m ρ c (Proc.devRef .tc main_v59) : FVec Ideal S50000x64 .f32) = Cert.Stages.agg64 (Cert.Spec.mm2 (Cert.Spec.biasRelu (Cert.Stages.agg128 (Cert.Spec.mm1 (m ((c.tc : Thread nD τ).loc main_arg0)) (m ((c.tc : Thread nD τ).loc main_arg2))) (Cert.Stages.src (m ((c.tc : Thread nD τ).loc main_arg1))) (Cert.Stages.dst (m ((c.tc : Thread nD τ).loc main_arg1))) (Cert.Stages.edgeNorm (m ((c.tc : Thread nD τ).loc main_arg1)))) (Cert.Stages.row128 (m ((c.tc : Thread nD τ).loc main_arg3)))) (m ((c.tc : Thread nD τ).loc main_arg4))) (Cert.Stages.src (m ((c.tc : Thread nD τ).loc main_arg1))) (Cert.Stages.dst (m ((c.tc : Thread nD τ).loc main_arg1))) (Cert.Stages.edgeNorm (m ((c.tc : Thread nD τ).loc main_arg1))) := by
  refine (Stretch.e_v59 _).trans ?_
  rw [W7_v46 m ρ c hreg, W7_v3 m ρ c, W7_v6 m ρ c, W7_v29 m ρ c]
theorem W8_v60 : (W8 m ρ c (Proc.devRef .tc main_v60) : FVec Ideal S1x64 .f32) = Cert.Stages.row64 (m ((c.tc : Thread nD τ).loc main_arg5)) := by
  refine (Stretch.e_v60 _).trans ?_
  rw [W7_arg5 m ρ c]

/-! ## The result -/

/-- The result buffer after the last region holds the two-layer network of the launch contents of the six arguments. -/
theorem W9_v61 (hreg : Regions) : (W9 m ρ c (Proc.devRef .tc main_v61) : FVec Ideal S50000x64 .f32)
    = Cert.Stages.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((hreg.r3 (V8 m ρ) c).trans ?_)
  rw [show V8 m ρ c main_v59 = _ from W8_v59 m ρ c hreg, show V8 m ρ c main_v60 = _ from W8_v60 m ρ c]
  rfl

end Cert.KernelIdeal.Thread

end
-- ==== Proof.lean ====
/-
  The certificate of a two-layer graph convolution: a Pallas kernel program (two tiled matrix products with bf16 operands and
  two tiled bias epilogues, the gather / scatter-add aggregation between them left to host operations) against its jnp reference.

  On the extended reals the two programs compute ONE function of the six argument arrays (`Stages.net`): a change of float
  format is the identity there, a matrix product accumulated into zero block by block is the host's `dot_general` row by row,
  the bias added block by block is the host's broadcast sum, and the rectifier is the maximum with zero in both.  The edges'
  normalisation, which the kernel program computes once and the reference once per layer, is the same term of the edge list.
  No algebraic law beyond this term-by-term reading is used, so the precondition (finite float inputs) is never opened.

  * the three frames: the word-level and the idealized kernel's are the generated frame certificates; the reference's is its run
    with the result dropped;
  * `preserves`: the ideal pass rewrote no operation, so there is nothing to state;
  * `algebraic`: the kernel's run names its result buffer by the fold of @main's nine segments over the launch memory
    (`KRun.run_named`), which read back is `Stages.net` of the arguments (`Thread.W9_v61`, from the four regions' whole-array
    values `Region0.final` … `Region3.final`); the reference's run ends at its composed term, which is the same
    `Stages.net` (`RefBridge.res_eq_net`).
-/
import proofs.«143281_j47304769798459_1_alg».proof.Defs
import proofs.«143281_j47304769798459_1_alg».proof.Proof.Gen.Kernel
import proofs.«143281_j47304769798459_1_alg».proof.Proof.Gen.Kernel.Frame
import proofs.«143281_j47304769798459_1_alg».proof.Proof.Gen.KernelIdeal
import proofs.«143281_j47304769798459_1_alg».proof.Proof.Gen.KernelIdeal.Frame
import proofs.«143281_j47304769798459_1_alg».proof.Proof.Gen.ReferenceIdeal
import proofs.«143281_j47304769798459_1_alg».proof.Proof.Gen.Pre_finite_inputs
import proofs.«143281_j47304769798459_1_alg».proof.Proof.KRun
import proofs.«143281_j47304769798459_1_alg».proof.Proof.RefRun
import proofs.«143281_j47304769798459_1_alg».proof.Proof.RefBridge
import proofs.«143281_j47304769798459_1_alg».proof.Proof.Region0
import proofs.«143281_j47304769798459_1_alg».proof.Proof.Region1
import proofs.«143281_j47304769798459_1_alg».proof.Proof.Region2
import proofs.«143281_j47304769798459_1_alg».proof.Proof.Region3
import proofs.«143281_j47304769798459_1_alg».proof.Proof.Thread
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Each region's output array after its ten grid points, as a function of the arrays the region found. -/
theorem regions : Cert.KernelIdeal.Thread.Regions :=
  ⟨Cert.KernelIdeal.Region0.final, Cert.KernelIdeal.Region1.final, Cert.KernelIdeal.Region2.final, Cert.KernelIdeal.Region3.final⟩

/-- From memories that agree on the arguments both programs end with their result at the two-layer network of those arguments. -/
theorem algebraic : Cert.algebraic_KernelIdeal_ReferenceIdeal := by
  intro m ρ m' ρ' _ hagree
  refine ⟨fun c => Cert.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Thread.W9_v61 m ρ c regions), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.RefBridge.res_eq_net, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
